-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v72) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S50000x256 .f32) (main_arg1 : IVec S2x1600000 32) (main_arg2 : FVec F S256x128 .f32) (main_arg3 : FVec F S128 .f32) (main_arg4 : FVec F S128x16 .f32) (main_arg5 : FVec F S16 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x16 .f32 := Host.absf main_arg4
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg5 main_v13 main_v16
-- ==== Kernel.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S5000x256 : Shape := ⟨2, ![5000, 256]⟩
abbrev S5000x128 : Shape := ⟨2, ![5000, 128]⟩
abbrev S1650000x128 : Shape := ⟨2, ![1650000, 128]⟩
abbrev S1x128 : Shape := ⟨2, ![1, 128]⟩
abbrev S50000x16 : Shape := ⟨2, ![50000, 16]⟩
abbrev S5000x16 : Shape := ⟨2, ![5000, 16]⟩
abbrev S1650000x16 : Shape := ⟨2, ![1650000, 16]⟩
abbrev S1x16 : Shape := ⟨2, ![1, 16]⟩
abbrev S50000x1 : Shape := ⟨2, ![50000, 1]⟩

abbrev nBuf : Space → Nat
  | .hbm => 96
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S50000, .i32⟩
  | .hbm, ⟨11, _⟩ => ⟨S1650000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S1650000, .i32⟩
  | .hbm, ⟨22, _⟩ => ⟨S1650000, .i1⟩
  | .hbm, ⟨23, _⟩ => ⟨S_, .i32⟩
  | .hbm, ⟨24, _⟩ => ⟨S1650000, .i32⟩
  | .hbm, ⟨25, _⟩ => ⟨S1650000, .i32⟩
  | .hbm, ⟨26, _⟩ => ⟨S1650000, .i32⟩
  | .hbm, ⟨27, _⟩ => ⟨S1650000x1, .i32⟩
  | .hbm, ⟨28, _⟩ => ⟨S1650000, .f32⟩
  | .hbm, ⟨29, _⟩ => ⟨S_, .i32⟩
  | .hbm, ⟨30, _⟩ => ⟨S1650000, .i32⟩
  | .hbm, ⟨31, _⟩ => ⟨S1650000, .i1⟩
  | .hbm, ⟨32, _⟩ => ⟨S_, .i32⟩
  | .hbm, ⟨33, _⟩ => ⟨S1650000, .i32⟩
  | .hbm, ⟨34, _⟩ => ⟨S1650000, .i32⟩
  | .hbm, ⟨35, _⟩ => ⟨S1650000, .i32⟩
  | .hbm, ⟨36, _⟩ => ⟨S1650000x1, .i32⟩
  | .hbm, ⟨37, _⟩ => ⟨S1650000, .f32⟩
  | .hbm, ⟨38, _⟩ => ⟨S1650000, .f32⟩
  | .hbm, ⟨39, _⟩ => ⟨S50000x128, .f32⟩
  | .hbm, ⟨40, _⟩ => ⟨S_, .i32⟩
  | .hbm, ⟨41, _⟩ => ⟨S1650000, .i32⟩
  | .hbm, ⟨42, _⟩ => ⟨S1650000, .i1⟩
  | .hbm, ⟨43, _⟩ => ⟨S_, .i32⟩
  | .hbm, ⟨44, _⟩ => ⟨S1650000, .i32⟩
  | .hbm, ⟨45, _⟩ => ⟨S1650000, .i32⟩
  | .hbm, ⟨46, _⟩ => ⟨S1650000, .i32⟩
  | .hbm, ⟨47, _⟩ => ⟨S1650000x1, .i32⟩
  | .hbm, ⟨48, _⟩ => ⟨S1650000x128, .f32⟩
  | .hbm, ⟨49, _⟩ => ⟨S1650000x1, .f32⟩
  | .hbm, ⟨50, _⟩ => ⟨S1650000x128, .f32⟩
  | .hbm, ⟨51, _⟩ => ⟨S1650000x128, .f32⟩
  | .hbm, ⟨52, _⟩ => ⟨S_, .f32⟩
  | .hbm, ⟨53, _⟩ => ⟨S50000x128, .f32⟩
  | .hbm, ⟨54, _⟩ => ⟨S1650000x1, .i32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S50000x128, .f32⟩
  | .hbm, ⟨61, _⟩ => ⟨S50000x128, .f32⟩
  | .hbm, ⟨62, _⟩ => ⟨S50000x16, .f32⟩
  | .hbm, ⟨63, _⟩ => ⟨S_, .i32⟩
  | .hbm, ⟨64, _⟩ => ⟨S1650000, .i32⟩
  | .hbm, ⟨65, _⟩ => ⟨S1650000, .i1⟩
  | .hbm, ⟨66, _⟩ => ⟨S_, .i32⟩
  | .hbm, ⟨67, _⟩ => ⟨S1650000, .i32⟩
  | .hbm, ⟨68, _⟩ => ⟨S1650000, .i32⟩
  | .hbm, ⟨69, _⟩ => ⟨S1650000, .i32⟩
  | .hbm, ⟨70, _⟩ => ⟨S1650000x1, .i32⟩
  | .hbm, ⟨71, _⟩ => ⟨S1650000x16, .f32⟩
  | .hbm, ⟨72, _⟩ => ⟨S1650000x1, .f32⟩
  | .hbm, ⟨73, _⟩ => ⟨S1650000x16, .f32⟩
  | .hbm, ⟨74, _⟩ => ⟨S1650000x16, .f32⟩
  | .hbm, ⟨75, _⟩ => ⟨S_, .f32⟩
  | .hbm, ⟨76, _⟩ => ⟨S50000x16, .f32⟩
  | .hbm, ⟨77, _⟩ => ⟨S1650000x1, .i32⟩
  | .hbm, ⟨78, _⟩ => ⟨S50000x16, .f32⟩
  | .hbm, ⟨79, _⟩ => ⟨S1x16, .f32⟩
  | .hbm, ⟨80, _⟩ => ⟨S50000x16, .f32⟩
  | .hbm, ⟨81, _⟩ => ⟨S50000x16, .f32⟩
  | .hbm, ⟨82, _⟩ => ⟨S_, .f32⟩
  | .hbm, ⟨83, _⟩ => ⟨S50000, .f32⟩
  | .hbm, ⟨84, _⟩ => ⟨S_, .f32⟩
  | .hbm, ⟨85, _⟩ => ⟨S50000, .f32⟩
  | .hbm, ⟨86, _⟩ => ⟨S50000, .f32⟩
  | .hbm, ⟨87, _⟩ => ⟨S50000x1, .f32⟩
  | .hbm, ⟨88, _⟩ => ⟨S50000x16, .f32⟩
  | .hbm, ⟨89, _⟩ => ⟨S50000x16, .f32⟩
  | .hbm, ⟨90, _⟩ => ⟨S50000x16, .f32⟩
  | .hbm, ⟨91, _⟩ => ⟨S_, .f32⟩
  | .hbm, ⟨92, _⟩ => ⟨S50000, .f32⟩
  | .hbm, ⟨93, _⟩ => ⟨S50000x1, .f32⟩
  | .hbm, ⟨94, _⟩ => ⟨S50000x16, .f32⟩
  | .hbm, ⟨95, _⟩ => ⟨S50000x16, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x16, .f32⟩
  | .local _ .vmem, ⟨8, _⟩ => ⟨S5000x16, .f32⟩
  | .local _ .vmem, ⟨9, _⟩ => ⟨S5000x16, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_10 : Ref sig .tc := ⟨.hbm, 82, rfl⟩
abbrev main_v62 : Ref sig .tc := ⟨.hbm, 83, rfl⟩
abbrev main_cst_11 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_12 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S1650000x1_S1650000x16_0_1 : S1650000x1.BroadcastsInDim S1650000x16 (![0, 1] : Fin 2 → Fin S1650000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S50000_d1 : S50000x16.ReducesTo [1] S50000
  h_S_ : 0 < S_.numel
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x256_S256x128_S5000x128_1_0_0_1_n_n_wf : DotDims.WF S5000x256 S256x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x16_S5000x16_1_0_0_1_n_n_wf : DotDims.WF S5000x128 S128x16 S5000x16 [1] [0] [0] [1] [] []
  gather_S50000x16_S1650000x1_S1650000x16_1_0_n_n_0_1_116_wf : GatherDims.WF S50000x16 S1650000x1 S1650000x16 [1] [0] [] [0] [] 1 ![1, 16]
  scatter_S50000x16_S1650000x1_S1650000x16_1_0_0_1_wf : ScatterDims.WF S50000x16 S1650000x1 S1650000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x16.size a ≤ S128x16.size a
  hwx1_1 : ∀ i : grid1.Coords, EltTy.bits .f32 = 32 ∨ (Rect.block (s := S128x16) S128x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S50000x16.size a
  hwx1_2 : ∀ i : grid1.Coords, EltTy.bits .f32 = 32 ∨ (Rect.block (s := S50000x16) S5000x16.size (cc1_transform_2 i) (hinb1_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S50000x16_S1650000x1_S1650000x16_1_0_n_n_0_1_116 : GatherDims S50000x16 S1650000x1 S1650000x16 where
  offsetDims := [1]
  collapsedSliceDims := [0]
  operandBatchingDims := []
  startIndicesBatchingDims := []
  startIndexMap := [0]
  indexVectorDim := 1
  sliceSizes := ![1, 16]
  wf := gather_S50000x16_S1650000x1_S1650000x16_1_0_n_n_0_1_116_wf
def scatter_S50000x16_S1650000x1_S1650000x16_1_0_0_1 : ScatterDims S50000x16 S1650000x1 S1650000x16 where
  updateWindowDims := [1]
  insertedWindowDims := [0]
  scatterDimsToOperandDims := [0]
  indexVectorDim := 1
  wf := scatter_S50000x16_S1650000x1_S1650000x16_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x16 : Shape := ⟨2, ![128, 16]⟩
abbrev S16 : Shape := ⟨1, ![16]⟩
abbrev S50000x128 : Shape := ⟨2, ![50000, 128]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S50000x16 : Shape := ⟨2, ![50000, 16]⟩
abbrev S1650000x16 : Shape := ⟨2, ![1650000, 16]⟩
abbrev S1x16 : Shape := ⟨2, ![1, 16]⟩
abbrev S50000x1 : Shape := ⟨2, ![50000, 1]⟩

abbrev nBuf : Space → Nat
  | .hbm => 129
  | .vmem => 0
  | .smem => 0
  | _ => 0

abbrev hbmTy0_0 (i : Nat) : BufTy := match i % 128 with
  | 0 => ⟨S50000x256, .f32⟩
  | 1 => ⟨S2x1600000, .i32⟩
  | 2 => ⟨S256x128, .f32⟩
  | 3 => ⟨S128, .f32⟩
  | 4 => ⟨S128x16, .f32⟩
  | 5 => ⟨S16, .f32⟩
  | 6 => ⟨S50000x128, .f32⟩
  | 7 => ⟨S1x1600000, .i32⟩
  | 8 => ⟨S1600000, .i32⟩
  | 9 => ⟨S1x1600000, .i32⟩
  | 10 => ⟨S1600000, .i32⟩
  | 11 => ⟨S50000, .i32⟩
  | 12 => ⟨S1650000, .i32⟩
  | 13 => ⟨S1650000, .i32⟩
  | 14 => ⟨S_, .f32⟩
  | 15 => ⟨S1650000, .f32⟩
  | 16 => ⟨S_, .f32⟩
  | 17 => ⟨S50000, .f32⟩
  | 18 => ⟨S1650000x1, .i32⟩
  | 19 => ⟨S50000, .f32⟩
  | 20 => ⟨S50000, .f32⟩
  | 21 => ⟨S_, .i32⟩
  | 22 => ⟨S1650000, .i32⟩
  | 23 => ⟨S1650000, .i1⟩
  | 24 => ⟨S_, .i32⟩
  | 25 => ⟨S1650000, .i32⟩
  | 26 => ⟨S1650000, .i32⟩
  | 27 => ⟨S1650000, .i32⟩
  | 28 => ⟨S1650000x1, .i32⟩
  | 29 => ⟨S1650000, .f32⟩
  | 30 => ⟨S_, .i32⟩
  | 31 => ⟨S1650000, .i32⟩
  | 32 => ⟨S1650000, .i1⟩
  | 33 => ⟨S_, .i32⟩
  | 34 => ⟨S1650000, .i32⟩
  | 35 => ⟨S1650000, .i32⟩
  | 36 => ⟨S1650000, .i32⟩
  | 37 => ⟨S1650000x1, .i32⟩
  | 38 => ⟨S1650000, .f32⟩
  | 39 => ⟨S1650000, .f32⟩
  | 40 => ⟨S_, .i32⟩
  | 41 => ⟨S1650000, .i32⟩
  | 42 => ⟨S1650000, .i1⟩
  | 43 => ⟨S_, .i32⟩
  | 44 => ⟨S1650000, .i32⟩
  | 45 => ⟨S1650000, .i32⟩
  | 46 => ⟨S1650000, .i32⟩
  | 47 => ⟨S1650000x1, .i32⟩
  | 48 => ⟨S1650000x128, .f32⟩
  | 49 => ⟨S1650000x1, .f32⟩
  | 50 => ⟨S1650000x128, .f32⟩
  | 51 => ⟨S1650000x128, .f32⟩
  | 52 => ⟨S_, .f32⟩
  | 53 => ⟨S50000x128, .f32⟩
  | 54 => ⟨S1650000x1, .i32⟩
  | 55 => ⟨S50000x128, .f32⟩
  | 56 => ⟨S1x128, .f32⟩
  | 57 => ⟨S50000x128, .f32⟩
  | 58 => ⟨S50000x128, .f32⟩
  | 59 => ⟨S_, .f32⟩
  | 60 => ⟨S50000x128, .f32⟩
  | 61 => ⟨S50000x128, .f32⟩
  | 62 => ⟨S50000x16, .f32⟩
  | 63 => ⟨S1x1600000, .i32⟩
  | 64 => ⟨S1600000, .i32⟩
  | 65 => ⟨S1x1600000, .i32⟩
  | 66 => ⟨S1600000, .i32⟩
  | 67 => ⟨S50000, .i32⟩
  | 68 => ⟨S1650000, .i32⟩
  | 69 => ⟨S1650000, .i32⟩
  | 70 => ⟨S_, .f32⟩
  | 71 => ⟨S1650000, .f32⟩
  | 72 => ⟨S_, .f32⟩
  | 73 => ⟨S50000, .f32⟩
  | 74 => ⟨S1650000x1, .i32⟩
  | 75 => ⟨S50000, .f32⟩
  | 76 => ⟨S50000, .f32⟩
  | 77 => ⟨S_, .i32⟩
  | 78 => ⟨S1650000, .i32⟩
  | 79 => ⟨S1650000, .i1⟩
  | 80 => ⟨S_, .i32⟩
  | 81 => ⟨S1650000, .i32⟩
  | 82 => ⟨S1650000, .i32⟩
  | 83 => ⟨S1650000, .i32⟩
  | 84 => ⟨S1650000x1, .i32⟩
  | 85 => ⟨S1650000, .f32⟩
  | 86 => ⟨S_, .i32⟩
  | 87 => ⟨S1650000, .i32⟩
  | 88 => ⟨S1650000, .i1⟩
  | 89 => ⟨S_, .i32⟩
  | 90 => ⟨S1650000, .i32⟩
  | 91 => ⟨S1650000, .i32⟩
  | 92 => ⟨S1650000, .i32⟩
  | 93 => ⟨S1650000x1, .i32⟩
  | 94 => ⟨S1650000, .f32⟩
  | 95 => ⟨S1650000, .f32⟩
  | 96 => ⟨S_, .i32⟩
  | 97 => ⟨S1650000, .i32⟩
  | 98 => ⟨S1650000, .i1⟩
  | 99 => ⟨S_, .i32⟩
  | 100 => ⟨S1650000, .i32⟩
  | 101 => ⟨S1650000, .i32⟩
  | 102 => ⟨S1650000, .i32⟩
  | 103 => ⟨S1650000x1, .i32⟩
  | 104 => ⟨S1650000x16, .f32⟩
  | 105 => ⟨S1650000x1, .f32⟩
  | 106 => ⟨S1650000x16, .f32⟩
  | 107 => ⟨S1650000x16, .f32⟩
  | 108 => ⟨S_, .f32⟩
  | 109 => ⟨S50000x16, .f32⟩
  | 110 => ⟨S1650000x1, .i32⟩
  | 111 => ⟨S50000x16, .f32⟩
  | 112 => ⟨S1x16, .f32⟩
  | 113 => ⟨S50000x16, .f32⟩
  | 114 => ⟨S50000x16, .f32⟩
  | 115 => ⟨S_, .f32⟩
  | 116 => ⟨S50000, .f32⟩
  | 117 => ⟨S_, .f32⟩
  | 118 => ⟨S50000, .f32⟩
  | 119 => ⟨S50000, .f32⟩
  | 120 => ⟨S50000x1, .f32⟩
  | 121 => ⟨S50000x16, .f32⟩
  | 122 => ⟨S50000x16, .f32⟩
  | 123 => ⟨S50000x16, .f32⟩
  | 124 => ⟨S_, .f32⟩
  | 125 => ⟨S50000, .f32⟩
  | 126 => ⟨S50000x1, .f32⟩
  | 127 => ⟨S50000x16, .f32⟩
  | _ => ⟨S50000x256, .f32⟩

abbrev hbmTy0_1 (i : Nat) : BufTy := match i % 128 with
  | 0 => ⟨S50000x16, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_9 : Ref sig .tc := ⟨.hbm, 77, rfl⟩
abbrev main_v58 : Ref sig .tc := ⟨.hbm, 78, rfl⟩
abbrev main_v59 : Ref sig .tc := ⟨.hbm, 79, rfl⟩
abbrev main_c_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_11 : Ref sig .tc := ⟨.hbm, 86, rfl⟩
abbrev main_v65 : Ref sig .tc := ⟨.hbm, 87, rfl⟩
abbrev main_v66 : Ref sig .tc := ⟨.hbm, 88, rfl⟩
abbrev main_c_12 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_13 : Ref sig .tc := ⟨.hbm, 96, rfl⟩
abbrev main_v73 : Ref sig .tc := ⟨.hbm, 97, rfl⟩
abbrev main_v74 : Ref sig .tc := ⟨.hbm, 98, rfl⟩
abbrev main_c_14 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_15 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_16 : Ref sig .tc := ⟨.hbm, 115, rfl⟩
abbrev main_v89 : Ref sig .tc := ⟨.hbm, 116, rfl⟩
abbrev main_cst_17 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_18 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x16_0_1 : S1650000x1.BroadcastsInDim S1650000x16 (![0, 1] : Fin 2 → Fin S1650000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S50000_d1 : S50000x16.ReducesTo [1] S50000
  h_S_ : 0 < S_.numel
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  dot_S50000x256_S256x128_S50000x128_1_0_0_1_n_n_wf : DotDims.WF S50000x256 S256x128 S50000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x16_S50000x16_1_0_0_1_n_n_wf : DotDims.WF S50000x128 S128x16 S50000x16 [1] [0] [0] [1] [] []
  gather_S50000x16_S1650000x1_S1650000x16_1_0_n_n_0_1_116_wf : GatherDims.WF S50000x16 S1650000x1 S1650000x16 [1] [0] [] [0] [] 1 ![1, 16]
  scatter_S50000x16_S1650000x1_S1650000x16_1_0_0_1_wf : ScatterDims.WF S50000x16 S1650000x1 S1650000x16 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf
def gather_S50000x16_S1650000x1_S1650000x16_1_0_n_n_0_1_116 : GatherDims S50000x16 S1650000x1 S1650000x16 where
  offsetDims := [1]
  collapsedSliceDims := [0]
  operandBatchingDims := []
  startIndicesBatchingDims := []
  startIndexMap := [0]
  indexVectorDim := 1
  sliceSizes := ![1, 16]
  wf := gather_S50000x16_S1650000x1_S1650000x16_1_0_n_n_0_1_116_wf
def scatter_S50000x16_S1650000x1_S1650000x16_1_0_0_1 : ScatterDims S50000x16 S1650000x1 S1650000x16 where
  updateWindowDims := [1]
  insertedWindowDims := [0]
  scatterDimsToOperandDims := [0]
  indexVectorDim := 1
  wf := scatter_S50000x16_S1650000x1_S1650000x16_1_0_0_1_wf

class Facts : Prop extends Facts₀ where

variable [Facts]
-- ==== Proof.KernelRun.lean ====
/-
  The idealized kernel program is two matrix products on the TensorCore's pipeline with plain tensor operations
  before, between and after them.  Its run is a chain of six segments; the contents of every buffer at the end of
  the chain are a fold over those segments from the launch memory.  Here the run is stated with that fold as its
  post: every execution terminates, and every buffer that is not scoped to a kernel ends at the fold's value.  The
  two results of the program and its six arguments are then read off.
-/
import proofs.«127019_j27865747817169_1_alg».proof.Proof.Gen.KernelIdeal.Frame

set_option maxRecDepth 16384

noncomputable section

namespace Cert.KernelIdeal.Held

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and at the end every buffer outside the
    kernels' scopes holds the value the chain of segments folds to from the launch memory. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The run with the two results and the six arguments read off: the results at the fold's value at their buffers,
    the arguments as launched. -/
theorem run_results : θ_run defs (onTc (τ := τ) (main (F := F))) ⟨m, fun _ => 0, ρ⟩ (fun r => ∀ c : Dev nD,
      r.2.mem ((c.tc : Thread nD τ).loc main_v61) = W6 m ρ c (Proc.devRef .tc main_v61)
      ∧ r.2.mem ((c.tc : Thread nD τ).loc main_v72) = W6 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v61 (by decide)),
     h c _ (mem_uc main_v72 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩) (run_held m ρ)

end Cert.KernelIdeal.Held

end
-- ==== Proof.LibRowsProduct.lean ====
/-
  The product of an a × K array by a K × b array with the one axis of extent K contracted, read at the entry
  (p, u) on the extended reals: the finite sum over k of lhs (p, k) · rhs (k, u).  Two spellings of the same
  sum are read: the product a kernel forms into the zero accumulator, and the host's general dot product, which
  has no accumulator.  The operands may be typed at any float formats (on the extended reals a format is only a
  label).  The dimension record enters through its contracted rank and extent and four facts about where it
  sends an output index and a contraction index; nothing here knows a program.
-/
import Idealize.ShloMosaic.Lib.ValueIdx
import Idealize.ShloMosaic.PureOps.Ideal.Laws

noncomputable section

open scoped BigOperators

namespace Cert.RowsProduct

open Idealize.ShloMosaic Idealize.ShloMosaic.ValueIdx

variable {a K b : ℕ} {φ₁ φ₂ : FTy}

/-- With the left operand's rows following the output's rows, the right operand's columns following the output's
    columns, and the contracted coordinate running along the left operand's columns and the right operand's rows,
    the two operand indices at output entry (p, u) and contraction coordinate k are (p, k) and (k, u). -/
theorem operand_indices (D : DotDims ⟨2, ![a, K]⟩ ⟨2, ![K, b]⟩ ⟨2, ![a, b]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin a) (u : Fin b) (k : Fin K) :
    D.lhsIdx (ix2 p u) ((contrEquiv1 D K hr hs).symm k) = ix2 p k
      ∧ D.rhsIdx (ix2 p u) ((contrEquiv1 D K hr hs).symm k) = ix2 k u := by
  have hk := contrEquiv1_symm_val D K hr hs k
  refine ⟨funext fun ax => Fin.ext ?_, funext fun ax => Fin.ext ?_⟩
  · match ax with
    | ⟨0, _⟩ => exact hl0 _ _
    | ⟨1, _⟩ => exact (hl1 _ _).trans hk
  · match ax with
    | ⟨0, _⟩ => exact (hr0 _ _).trans hk
    | ⟨1, _⟩ => exact hr1 _ _

/-- The product into the zero accumulator, at entry (p, u), is Σ_k lhs (p, k) · rhs (k, u). -/
theorem matmul_zero_rows_apply (D : DotDims ⟨2, ![a, K]⟩ ⟨2, ![K, b]⟩ ⟨2, ![a, b]⟩) (prec : Option ContractPrecision)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.matmul D prec lhs rhs (constant ⟨2, ![a, b]⟩ .f32 0x00000000#32) (ix2 p u)
      = ∑ k : Fin K, lhs (ix2 p k) * rhs (ix2 k u) := by
  rw [Ideal.matmul_constant_zero_apply, ← Equiv.sum_comp (contrEquiv1 D K hr hs).symm]
  refine Finset.sum_congr rfl fun k _ => ?_
  obtain ⟨el, er⟩ := operand_indices D hr hs hl0 hl1 hr0 hr1 p u k
  rw [el, er]

/-- The host's general dot product, at entry (p, u), is the same sum, whatever its schedule key. -/
theorem dotGeneral_rows_apply (D : DotDims ⟨2, ![a, K]⟩ ⟨2, ![K, b]⟩ ⟨2, ![a, b]⟩) (prec : Option ContractPrecision)
    (sched : HostSchedule)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (lhs : FVec Ideal ⟨2, ![a, K]⟩ φ₁) (rhs : FVec Ideal ⟨2, ![K, b]⟩ φ₂) (p : Fin a) (u : Fin b) :
    FloatOps.dotGeneral D prec sched lhs rhs (ix2 p u) = ∑ k : Fin K, lhs (ix2 p k) * rhs (ix2 k u) := by
  rw [Ideal.dotGeneral_apply, ← Equiv.sum_comp (contrEquiv1 D K hr hs).symm]
  refine Finset.sum_congr rfl fun k _ => ?_
  obtain ⟨el, er⟩ := operand_indices D hr hs hl0 hl1 hr0 hr1 p u k
  rw [el, er]

end Cert.RowsProduct

end
-- ==== Proof.RowsTimes.lean ====
/-
  The product of an a × K array by a K × b array on the extended reals, entry by entry: entry (p, u) is the sum
  over k of x (p, k) · w (k, u).  Both programs' matrix products are read as this one function.
-/
import Idealize.ShloMosaic.Lib.ValueIdx
import Idealize.ShloMosaic.PureOps.Ideal

noncomputable section

open scoped BigOperators

namespace Cert.Rows

open Idealize.ShloMosaic Idealize.ShloMosaic.ValueIdx

/-- The product of an a × K array by a K × b array, entry by entry, on the extended reals. -/
def rowsTimes {a K b : ℕ} (x : (⟨2, ![a, K]⟩ : Shape).Idx → EReal) (w : (⟨2, ![K, b]⟩ : Shape).Idx → EReal) :
    (⟨2, ![a, b]⟩ : Shape).Idx → EReal :=
  fun i => ∑ k : Fin K, x (ix2 (n0 := a) (n1 := K) (i 0) k) * w (ix2 (n0 := K) (n1 := b) k (i 1))

theorem rowsTimes_apply {a K b : ℕ} (x : (⟨2, ![a, K]⟩ : Shape).Idx → EReal) (w : (⟨2, ![K, b]⟩ : Shape).Idx → EReal)
    (p : Fin a) (u : Fin b) : rowsTimes x w (ix2 p u) = ∑ k : Fin K, x (ix2 p k) * w (ix2 k u) := rfl

end Cert.Rows

end
-- ==== Proof.Products.lean ====
/-
  Each of the two pipelined regions multiplies a tall array by a small weight matrix, ten blocks of 5000 rows at a
  time: grid point t loads block row t of the left operand and the whole weight matrix, forms their product into a
  zero accumulator, and writes it back as block row t of the output.  On the extended reals the entry (p, u) of that
  block is the sum over k of left (p, k) · weights (k, u), so the ten blocks written back are the ten block rows of the
  one product of the whole arrays, and since they tile the output the output ends holding that product.
-/
import proofs.«127019_j27865747817169_1_alg».proof.Proof.Gen.KernelIdeal.Frame
import proofs.«127019_j27865747817169_1_alg».proof.Proof.LibRowsProduct
import proofs.«127019_j27865747817169_1_alg».proof.Proof.RowsTimes
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Rows

open Cert.KernelIdeal Cert.KernelIdeal.Gen
open Idealize.ShloMosaic Idealize.ShloMosaic.TcCoe Idealize.ShloMosaic.ValueIdx Idealize.ShloMosaic.Pipeline
open Idealize.SL Idealize.SL.Sem Cert.Rows

theorem hz : (![0, 0] : Fin 2 → Nat) = fun _ => 0 := funext fun a => by fin_cases a <;> rfl

variable (V : (c : Dev nD) → (b : Ref sig .tc) → Buf (Elt Ideal) ((c : Thread nD τ).loc b))

/-! ## The first product: 50000 × 256 by 256 × 128, ten blocks of 5000 rows -/

theorem d0_l0 (j : S5000x128.Idx) (q : dot_S5000x256_S256x128_S5000x128_1_0_0_1_n_n.contr.Idx) : (dot_S5000x256_S256x128_S5000x128_1_0_0_1_n_n.lhsIdx j q 0).val = (j 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem d0_l1 (j : S5000x128.Idx) (q : dot_S5000x256_S256x128_S5000x128_1_0_0_1_n_n.contr.Idx) : (dot_S5000x256_S256x128_S5000x128_1_0_0_1_n_n.lhsIdx j q 1).val = (q ⟨0, by decide⟩).val :=
  dot_S5000x256_S256x128_S5000x128_1_0_0_1_n_n.lhsIdx_val_of_single rfl j q
theorem d0_r0 (j : S5000x128.Idx) (q : dot_S5000x256_S256x128_S5000x128_1_0_0_1_n_n.contr.Idx) : (dot_S5000x256_S256x128_S5000x128_1_0_0_1_n_n.rhsIdx j q 0).val = (q ⟨0, by decide⟩).val :=
  dot_S5000x256_S256x128_S5000x128_1_0_0_1_n_n.rhsIdx_val_of_single rfl j q
theorem d0_r1 (j : S5000x128.Idx) (q : dot_S5000x256_S256x128_S5000x128_1_0_0_1_n_n.contr.Idx) : (dot_S5000x256_S256x128_S5000x128_1_0_0_1_n_n.rhsIdx j q 1).val = (j 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- What one grid point stores, at row p and column u of its block: the row of the left block against the column
    of the weights (rounding the operands to bf16 changes nothing on the extended reals). -/
theorem pay0_apply (x0 : Vec Ideal S5000x256 .f32) (x1 : Vec Ideal S256x128 .f32) (p : Fin 5000) (u : Fin 128) :
    k0_pay1 x0 x1 (ix2 p u) = ∑ k : Fin 256, x0 (ix2 p k) * x1 (ix2 k u) := by
  unfold k0_pay1
  exact Cert.RowsProduct.matmul_zero_rows_apply dot_S5000x256_S256x128_S5000x128_1_0_0_1_n_n none rfl rfl d0_l0 d0_l1 d0_r0 d0_r1
    (truncf .bf16 x0 bitsLt_bf16_f32) (truncf .bf16 x1 bitsLt_bf16_f32) p u

theorem pay0_at (x0 : Vec Ideal S5000x256 .f32) (x1 : Vec Ideal S256x128 .f32) (j : S5000x128.Idx) :
    k0_pay1 x0 x1 j = ∑ k : Fin 256, x0 (ix2 (j 0) k) * x1 (ix2 k (j 1)) := by
  obtain ⟨p, u, rfl⟩ : ∃ (p : Fin 5000) (u : Fin 128), j = ix2 p u := ⟨j 0, j 1, eq_ix2 j⟩
  exact pay0_apply x0 x1 p u

/-- Where the three windows' blocks sit at grid point t: the left operand's and the output's blocks are block row t,
    full width; the weights' block is the whole matrix. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every block row is some grid point's. -/
theorem idx_onto0 : ∀ q0 : Fin 10, ∃ t : Fin cfg0.N, win0_2.index t = ![q0.val, 0] :=
  (by decide +kernel : ∀ q0 : Fin 10, ∃ t : Fin grid0.N, win0_2.index t = ![q0.val, 0])

/-- What grid point t writes back is block t of the whole product of the two arrays as the region finds them. -/
theorem flushed0_eq (c : Dev nD) (t : Fin cfg0.N) :
    (dat0 V c).flushed 2 t
      = ((cfg0.win 2).blk t).view.read (Elt Ideal) (rowsTimes (a := 50000) (K := 256) (b := 128) (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨e0, e1, e2, e3, e4, e5⟩ := idx_facts0 t
  funext j
  show k0_pay1 (iblk0 V c 0 t) (iblk0 V c 1 t) j
    = rowsTimes (a := 50000) (K := 256) (b := 128) (V c main_arg0) (V c main_arg2) (((cfg0.win 2).blk t).view.emb j)
  refine (pay0_at (iblk0 V c 0 t) (iblk0 V c 1 t) j).trans ?_
  unfold rowsTimes
  refine Finset.sum_congr rfl fun k _ => ?_
  have hl : iblk0 V c 0 t (ix2 (j 0) k)
      = V c main_arg0 (ix2 (n0 := 50000) (n1 := 256) ((((cfg0.win 2).blk t).view.emb j) 0) k) := by
    show V c main_arg0 (((cfg0.win 0).blk t).view.emb (ix2 (j 0) k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have hr : iblk0 V c 1 t (ix2 k (j 1))
      = V c main_arg2 (ix2 (n0 := 256) (n1 := 128) k ((((cfg0.win 2).blk t).view.emb j) 1)) := by
    show V c main_arg2 (((cfg0.win 1).blk t).view.emb (ix2 k (j 1))) = _
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  rw [hl, hr]

/-- An entry of the output array lies in grid point t's block exactly when each coordinate lies in the block's range. -/
theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v27).slice (win0_2.rect t)).set ↔ _
  rw [View.set_slice_whole, Rect.mem_set_unit]
  exact Iff.rfl

/-- The ten blocks tile the output: row r is in block r / 5000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region the output array holds the whole product of the two operand arrays as the region found them. -/
theorem final0 (c : Dev nD) :
    (dat0 V c).arrAt 2 cfg0.N = rowsTimes (a := 50000) (K := 256) (b := 128) (V c main_arg0) (V c main_arg2) :=
  (dat0 V c).arrAt_eq_of_cover 2 _ (fun t _ => flushed0_eq V c t) (cover0)

/-! ## The second product: 50000 × 128 by 128 × 16, ten blocks of 5000 rows -/

theorem d1_l0 (j : S5000x16.Idx) (q : dot_S5000x128_S128x16_S5000x16_1_0_0_1_n_n.contr.Idx) : (dot_S5000x128_S128x16_S5000x16_1_0_0_1_n_n.lhsIdx j q 0).val = (j 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl
theorem d1_l1 (j : S5000x16.Idx) (q : dot_S5000x128_S128x16_S5000x16_1_0_0_1_n_n.contr.Idx) : (dot_S5000x128_S128x16_S5000x16_1_0_0_1_n_n.lhsIdx j q 1).val = (q ⟨0, by decide⟩).val :=
  dot_S5000x128_S128x16_S5000x16_1_0_0_1_n_n.lhsIdx_val_of_single rfl j q
theorem d1_r0 (j : S5000x16.Idx) (q : dot_S5000x128_S128x16_S5000x16_1_0_0_1_n_n.contr.Idx) : (dot_S5000x128_S128x16_S5000x16_1_0_0_1_n_n.rhsIdx j q 0).val = (q ⟨0, by decide⟩).val :=
  dot_S5000x128_S128x16_S5000x16_1_0_0_1_n_n.rhsIdx_val_of_single rfl j q
theorem d1_r1 (j : S5000x16.Idx) (q : dot_S5000x128_S128x16_S5000x16_1_0_0_1_n_n.contr.Idx) : (dot_S5000x128_S128x16_S5000x16_1_0_0_1_n_n.rhsIdx j q 1).val = (j 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

/-- What one grid point stores, at row p and column u of its block: the row of the left block against the column
    of the weights (rounding the operands to bf16 changes nothing on the extended reals). -/
theorem pay1_apply (x0 : Vec Ideal S5000x128 .f32) (x1 : Vec Ideal S128x16 .f32) (p : Fin 5000) (u : Fin 16) :
    k1_pay1 x0 x1 (ix2 p u) = ∑ k : Fin 128, x0 (ix2 p k) * x1 (ix2 k u) := by
  unfold k1_pay1
  rw [shapeCast_self]
  exact Cert.RowsProduct.matmul_zero_rows_apply dot_S5000x128_S128x16_S5000x16_1_0_0_1_n_n none rfl rfl d1_l0 d1_l1 d1_r0 d1_r1
    (truncf .bf16 x0 bitsLt_bf16_f32) (truncf .bf16 x1 bitsLt_bf16_f32) p u

theorem pay1_at (x0 : Vec Ideal S5000x128 .f32) (x1 : Vec Ideal S128x16 .f32) (j : S5000x16.Idx) :
    k1_pay1 x0 x1 j = ∑ k : Fin 128, x0 (ix2 (j 0) k) * x1 (ix2 k (j 1)) := by
  obtain ⟨p, u, rfl⟩ : ∃ (p : Fin 5000) (u : Fin 16), j = ix2 p u := ⟨j 0, j 1, eq_ix2 j⟩
  exact pay1_apply x0 x1 p u

/-- Where the three windows' blocks sit at grid point t: the left operand's and the output's blocks are block row t,
    full width; the weights' block is the whole matrix. -/
theorem idx_facts1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every block row is some grid point's. -/
theorem idx_onto1 : ∀ q0 : Fin 10, ∃ t : Fin cfg1.N, win1_2.index t = ![q0.val, 0] :=
  (by decide +kernel : ∀ q0 : Fin 10, ∃ t : Fin grid1.N, win1_2.index t = ![q0.val, 0])

/-- What grid point t writes back is block t of the whole product of the two arrays as the region finds them. -/
theorem flushed1_eq (c : Dev nD) (t : Fin cfg1.N) :
    (dat1 V c).flushed 2 t
      = ((cfg1.win 2).blk t).view.read (Elt Ideal) (rowsTimes (a := 50000) (K := 128) (b := 16) (V c main_v44) (V c main_arg4)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x16) hz]
  obtain ⟨e0, e1, e2, e3, e4, e5⟩ := idx_facts1 t
  funext j
  show k1_pay1 (iblk1 V c 0 t) (iblk1 V c 1 t) j
    = rowsTimes (a := 50000) (K := 128) (b := 16) (V c main_v44) (V c main_arg4) (((cfg1.win 2).blk t).view.emb j)
  refine (pay1_at (iblk1 V c 0 t) (iblk1 V c 1 t) j).trans ?_
  unfold rowsTimes
  refine Finset.sum_congr rfl fun k _ => ?_
  have hl : iblk1 V c 0 t (ix2 (j 0) k)
      = V c main_v44 (ix2 (n0 := 50000) (n1 := 128) ((((cfg1.win 2).blk t).view.emb j) 0) k) := by
    show V c main_v44 (((cfg1.win 0).blk t).view.emb (ix2 (j 0) k)) = _
    refine congrArg (V c main_v44) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have hr : iblk1 V c 1 t (ix2 k (j 1))
      = V c main_arg4 (ix2 (n0 := 128) (n1 := 16) k ((((cfg1.win 2).blk t).view.emb j) 1)) := by
    show V c main_arg4 (((cfg1.win 1).blk t).view.emb (ix2 k (j 1))) = _
    refine congrArg (V c main_arg4) (funext fun a => Fin.ext ?_)
    match a with
    | ⟨0, _⟩ => show win1_1.index t (0 : Fin 2) * 128 + 1 * k.val = k.val; omega
    | ⟨1, _⟩ => show win1_1.index t (1 : Fin 2) * 16 + 1 * (j 1).val = win1_2.index t (1 : Fin 2) * 16 + 1 * (j 1).val; omega
  rw [hl, hr]

/-- An entry of the output array lies in grid point t's block exactly when each coordinate lies in the block's range. -/
theorem mem_blk1 (t : Fin cfg1.N) (i : S50000x16.Idx) :
    i ∈ ((cfg1.win 2).blk t).view.set ↔ ∀ a : Fin 2, win1_2.index t a * S5000x16.size a ≤ (i a).val
      ∧ (i a).val < win1_2.index t a * S5000x16.size a + S5000x16.size a := by
  show i ∈ ((View.whole main_v45).slice (win1_2.rect t)).set ↔ _
  rw [View.set_slice_whole, Rect.mem_set_unit]
  exact Iff.rfl

/-- The ten blocks tile the output: row r is in block r / 5000. -/
theorem cover1 (i : S50000x16.Idx) : ∃ t : Fin cfg1.N, (cfg1.win 2).flush t = true ∧ i ∈ ((cfg1.win 2).blk t).view.set := by
  have hi0 : (i 0).val < 50000 := (i 0).isLt
  have hi1 : (i 1).val < 16 := (i 1).isLt
  obtain ⟨t, ht⟩ := idx_onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 16 ≤ (i 1).val ∧ (i 1).val < win1_2.index t (1 : Fin 2) * 16 + 16; omega

/-- After the region the output array holds the whole product of the two operand arrays as the region found them. -/
theorem final1 (c : Dev nD) :
    (dat1 V c).arrAt 2 cfg1.N = rowsTimes (a := 50000) (K := 128) (b := 16) (V c main_v44) (V c main_arg4) :=
  (dat1 V c).arrAt_eq_of_cover 2 _ (fun t _ => flushed1_eq V c t) (cover1)

end Cert.KernelIdeal.Rows

end
-- ==== Proof.Stages.lean ====
/-
  The graph convolution's tensor operations outside the two matrix products, as functions of the arrays they read.
  An edge list e (2 × 1600000) gives, with the 50000 self loops appended, a source list and a target list of 1650000
  node numbers.  The in-degree of a node is the number of list positions whose target is that node; an edge's weight is
  rsqrt(degree(source)) · rsqrt(degree(target)).  A layer takes the projected features h, gathers the source row of every
  edge, scales it by the edge's weight, and adds it into the target's row; then the bias is added.  After the first layer
  comes a maximum with zero; after the second the row-wise softmax.  Negative node numbers are wrapped by 50000 before a
  gather, as the indexing convention of the source program has it.
-/
import proofs.«127019_j27865747817169_1_alg».proof.Proof.Gen.KernelIdeal

noncomputable section

namespace Cert.KernelIdeal.Stages

open Cert.KernelIdeal Cert.KernelIdeal.Gen Idealize.ShloMosaic

variable {F : FTy → Type} [FloatOps F]

/-- The source of every edge, then every node once (the self loops). -/
def sources (e : (⟨S2x1600000, .i32⟩ : BufTy).Contents (Elt F)) : (⟨S1650000, .i32⟩ : BufTy).Contents (Elt F) :=
  concatenate S1650000 0 [⟨S1600000, shapeCast S1600000 (extractStridedSlice S1x1600000 ![0, 0] e slices_S2x1600000_S1x1600000_0_0) shapeCasts_S1x1600000_S1600000⟩, ⟨S50000, iotaInDim S50000 32 0⟩] concatenates_S1600000_S50000_S1650000_d0

/-- The target of every edge, then every node once. -/
def targets (e : (⟨S2x1600000, .i32⟩ : BufTy).Contents (Elt F)) : (⟨S1650000, .i32⟩ : BufTy).Contents (Elt F) :=
  concatenate S1650000 0 [⟨S1600000, shapeCast S1600000 (extractStridedSlice S1x1600000 ![1, 0] e slices_S2x1600000_S1x1600000_1_0) shapeCasts_S1x1600000_S1600000⟩, ⟨S50000, iotaInDim S50000 32 0⟩] concatenates_S1600000_S50000_S1650000_d0

/-- Node numbers made ready for a gather: a negative one has 50000 added; then one index column. -/
def wrapped (s : (⟨S1650000, .i32⟩ : BufTy).Contents (Elt F)) : (⟨S1650000x1, .i32⟩ : BufTy).Contents (Elt F) :=
  broadcastInDim S1650000x1 ![0] bcast_S1650000_S1650000x1_0
    (select (cmpi .slt s (broadcastInDim S1650000 ![] bcast_S_S1650000 (constantI S_ 32 0#32)))
      (addi s (broadcastInDim S1650000 ![] bcast_S_S1650000 (constantI S_ 32 50000#32))) s)

/-- The in-degree of every node: ones added into a zero vector at the targets. -/
def degree (d : (⟨S1650000, .i32⟩ : BufTy).Contents (Elt F)) : (⟨S50000, .f32⟩ : BufTy).Contents (Elt F) :=
  Host.scatterAdd scatter_S50000_S1650000x1_S1650000_n_0_0_1
    (broadcastInDim S50000 ![] bcast_S_S50000 (constant (F := F) S_ .f32 0x00000000#32))
    (broadcastInDim S1650000x1 ![0] bcast_S1650000_S1650000x1_0 d)
    (broadcastInDim S1650000 ![] bcast_S_S1650000 (constant (F := F) S_ .f32 0x3F800000#32))

/-- The weight of every list position: rsqrt(degree(source)) · rsqrt(degree(target)). -/
def weights (s d : (⟨S1650000, .i32⟩ : BufTy).Contents (Elt F)) : (⟨S1650000, .f32⟩ : BufTy).Contents (Elt F) :=
  mulf (Host.gather gather_S50000_S1650000x1_S1650000_n_0_n_n_0_1_1 (Host.rsqrt (degree (F := F) d)) (wrapped (F := F) s))
    (Host.gather gather_S50000_S1650000x1_S1650000_n_0_n_n_0_1_1 (Host.rsqrt (degree (F := F) d)) (wrapped (F := F) d))

/-- One aggregation over 128 features: every position's source row of h, scaled by its weight, added into its target's row. -/
def spread128 (h : (⟨S50000x128, .f32⟩ : BufTy).Contents (Elt F)) (s d : (⟨S1650000, .i32⟩ : BufTy).Contents (Elt F)) (n : (⟨S1650000, .f32⟩ : BufTy).Contents (Elt F)) : (⟨S50000x128, .f32⟩ : BufTy).Contents (Elt F) :=
  Host.scatterAdd scatter_S50000x128_S1650000x1_S1650000x128_1_0_0_1
    (broadcastInDim S50000x128 ![] bcast_S_S50000x128 (constant (F := F) S_ .f32 0x00000000#32))
    (broadcastInDim S1650000x1 ![0] bcast_S1650000_S1650000x1_0 d)
    (mulf (Host.gather gather_S50000x128_S1650000x1_S1650000x128_1_0_n_n_0_1_1128 h (wrapped (F := F) s))
      (broadcastInDim S1650000x128 ![0, 1] bcast_S1650000x1_S1650000x128_0_1 (broadcastInDim S1650000x1 ![0] bcast_S1650000_S1650000x1_0 n)))

/-- The first layer before its maximum with zero: the aggregate plus the bias along every row. -/
def biased128 (h : (⟨S50000x128, .f32⟩ : BufTy).Contents (Elt F)) (s d : (⟨S1650000, .i32⟩ : BufTy).Contents (Elt F)) (n : (⟨S1650000, .f32⟩ : BufTy).Contents (Elt F)) (b1 : (⟨S128, .f32⟩ : BufTy).Contents (Elt F)) : (⟨S50000x128, .f32⟩ : BufTy).Contents (Elt F) :=
  addf (spread128 h s d n) (broadcastInDim S50000x128 ![0, 1] bcast_S1x128_S50000x128_0_1 (broadcastInDim S1x128 ![1] bcast_S128_S1x128_1 b1))

/-- The maximum with zero, entry by entry. -/
def positive (x : (⟨S50000x128, .f32⟩ : BufTy).Contents (Elt F)) : (⟨S50000x128, .f32⟩ : BufTy).Contents (Elt F) :=
  maximumf x (broadcastInDim S50000x128 ![] bcast_S_S50000x128 (constant (F := F) S_ .f32 0x00000000#32))

/-- One aggregation over 16 classes. -/
def spread16 (h : (⟨S50000x16, .f32⟩ : BufTy).Contents (Elt F)) (s d : (⟨S1650000, .i32⟩ : BufTy).Contents (Elt F)) (n : (⟨S1650000, .f32⟩ : BufTy).Contents (Elt F)) : (⟨S50000x16, .f32⟩ : BufTy).Contents (Elt F) :=
  Host.scatterAdd scatter_S50000x16_S1650000x1_S1650000x16_1_0_0_1
    (broadcastInDim S50000x16 ![] bcast_S_S50000x16 (constant (F := F) S_ .f32 0x00000000#32))
    (broadcastInDim S1650000x1 ![0] bcast_S1650000_S1650000x1_0 d)
    (mulf (Host.gather gather_S50000x16_S1650000x1_S1650000x16_1_0_n_n_0_1_116 h (wrapped (F := F) s))
      (broadcastInDim S1650000x16 ![0, 1] bcast_S1650000x1_S1650000x16_0_1 (broadcastInDim S1650000x1 ![0] bcast_S1650000_S1650000x1_0 n)))

/-- The second layer's output: the aggregate plus the bias along every row. -/
def logits (h : (⟨S50000x16, .f32⟩ : BufTy).Contents (Elt F)) (s d : (⟨S1650000, .i32⟩ : BufTy).Contents (Elt F)) (n : (⟨S1650000, .f32⟩ : BufTy).Contents (Elt F)) (b2 : (⟨S16, .f32⟩ : BufTy).Contents (Elt F)) : (⟨S50000x16, .f32⟩ : BufTy).Contents (Elt F) :=
  addf (spread16 h s d n) (broadcastInDim S50000x16 ![0, 1] bcast_S1x16_S50000x16_0_1 (broadcastInDim S1x16 ![1] bcast_S16_S1x16_1 b2))

/-- Every row's maximum (against −∞ once more, as the source program does). -/
def rowMax (x : (⟨S50000x16, .f32⟩ : BufTy).Contents (Elt F)) : (⟨S50000, .f32⟩ : BufTy).Contents (Elt F) :=
  maximumf (broadcastInDim S50000 ![] bcast_S_S50000 (constant (F := F) S_ .f32 0xFF800000#32))
    (Host.reduce FloatOps.maximumf x (constant (F := F) S_ .f32 0xFF800000#32) reducesTo_S50000x16_S50000_d1 h_S_)

/-- exp of every entry less its row's maximum. -/
def shifted (x : (⟨S50000x16, .f32⟩ : BufTy).Contents (Elt F)) : (⟨S50000x16, .f32⟩ : BufTy).Contents (Elt F) :=
  Host.exp (subf x (broadcastInDim S50000x16 ![0, 1] bcast_S50000x1_S50000x16_0_1 (broadcastInDim S50000x1 ![0] bcast_S50000_S50000x1_0 (rowMax (F := F) x))))

/-- The row-wise softmax. -/
def softmax (x : (⟨S50000x16, .f32⟩ : BufTy).Contents (Elt F)) : (⟨S50000x16, .f32⟩ : BufTy).Contents (Elt F) :=
  Host.divf (shifted (F := F) x) (broadcastInDim S50000x16 ![0, 1] bcast_S50000x1_S50000x16_0_1 (broadcastInDim S50000x1 ![0] bcast_S50000_S50000x1_0
    (Host.reduceAdd (shifted (F := F) x) (constant (F := F) S_ .f32 0x00000000#32) reducesTo_S50000x16_S50000_d1 h_S_)))

end Cert.KernelIdeal.Stages

end
-- ==== Proof.Spec.lean ====
/-
  What both programs compute, as one function of the six argument arrays, on the extended reals.  With x the node
  features, e the edge list, W1, b1, W2, b2 the two layers' weights and biases: the hidden features are the positive
  part of the first layer applied to x · W1, the scores are the second layer applied to hidden · W2, and the second
  result is the row-wise softmax of the scores.  Both layers use one set of edge weights, which depends on e only.
-/
import proofs.«127019_j27865747817169_1_alg».proof.Proof.Stages
import proofs.«127019_j27865747817169_1_alg».proof.Proof.RowsTimes

noncomputable section

namespace Cert.Spec

open Cert.KernelIdeal Cert.KernelIdeal.Stages Cert.Rows Idealize.ShloMosaic

/-- The weight of every list position of the graph with self loops. -/
def edgeWeights (e : (⟨S2x1600000, .i32⟩ : BufTy).Contents (Elt Ideal)) : (⟨S1650000, .f32⟩ : BufTy).Contents (Elt Ideal) :=
  weights (F := Ideal) (sources (F := Ideal) e) (targets (F := Ideal) e)

/-- The hidden features: the positive part of the aggregated x · W1 plus b1. -/
def hidden (x : (⟨S50000x256, .f32⟩ : BufTy).Contents (Elt Ideal)) (e : (⟨S2x1600000, .i32⟩ : BufTy).Contents (Elt Ideal)) (w1 : (⟨S256x128, .f32⟩ : BufTy).Contents (Elt Ideal)) (b1 : (⟨S128, .f32⟩ : BufTy).Contents (Elt Ideal)) :
    (⟨S50000x128, .f32⟩ : BufTy).Contents (Elt Ideal) :=
  positive (F := Ideal) (biased128 (F := Ideal) (rowsTimes (a := 50000) (K := 256) (b := 128) x w1)
    (sources (F := Ideal) e) (targets (F := Ideal) e) (edgeWeights e) b1)

/-- The scores: the aggregated hidden · W2 plus b2. -/
def scores (x : (⟨S50000x256, .f32⟩ : BufTy).Contents (Elt Ideal)) (e : (⟨S2x1600000, .i32⟩ : BufTy).Contents (Elt Ideal)) (w1 : (⟨S256x128, .f32⟩ : BufTy).Contents (Elt Ideal)) (b1 : (⟨S128, .f32⟩ : BufTy).Contents (Elt Ideal))
    (w2 : (⟨S128x16, .f32⟩ : BufTy).Contents (Elt Ideal)) (b2 : (⟨S16, .f32⟩ : BufTy).Contents (Elt Ideal)) : (⟨S50000x16, .f32⟩ : BufTy).Contents (Elt Ideal) :=
  logits (F := Ideal) (rowsTimes (a := 50000) (K := 128) (b := 16) (hidden x e w1 b1) w2)
    (sources (F := Ideal) e) (targets (F := Ideal) e) (edgeWeights e) b2

/-- The class probabilities: the row-wise softmax of the scores. -/
def probabilities (x : (⟨S50000x256, .f32⟩ : BufTy).Contents (Elt Ideal)) (e : (⟨S2x1600000, .i32⟩ : BufTy).Contents (Elt Ideal)) (w1 : (⟨S256x128, .f32⟩ : BufTy).Contents (Elt Ideal)) (b1 : (⟨S128, .f32⟩ : BufTy).Contents (Elt Ideal))
    (w2 : (⟨S128x16, .f32⟩ : BufTy).Contents (Elt Ideal)) (b2 : (⟨S16, .f32⟩ : BufTy).Contents (Elt Ideal)) : (⟨S50000x16, .f32⟩ : BufTy).Contents (Elt Ideal) :=
  softmax (F := Ideal) (scores x e w1 b1 w2 b2)

end Cert.Spec

end
-- ==== Proof.LibTypedRef.lean ====
/-
  A typed reference carries the type of the tensor value its buffer holds, and moves contents between that type and
  the buffer's own type along the equation between the two.  Moving contents there and back, in either order, is
  the identity.  Nothing here knows a program.
-/
import Idealize.ShloMosaic.Lib.StableHlo

noncomputable section

namespace Cert.TypedRef

open Idealize.ShloMosaic Idealize.ShloMosaic.StableHlo

variable {sig : RefSig} {Val : EltTy → Type} {T : BufTy}

/-- Contents taken to the buffer's own type and back are the contents. -/
theorem ofBuf_toBuf (x : TRef sig T) (v : T.Contents Val) : x.ofBuf (x.toBuf v) = v := by
  obtain ⟨r, h, h1, h2⟩ := x
  subst h
  rfl

/-- Contents of the buffer taken to the value's type and back are the contents. -/
theorem toBuf_ofBuf (x : TRef sig T) (v : x.ref.ty.Contents Val) : x.toBuf (x.ofBuf v) = v := by
  obtain ⟨r, h, h1, h2⟩ := x
  subst h
  rfl

end Cert.TypedRef

end
-- ==== Proof.Fold.lean ====
/-
  The idealized kernel program's buffer contents at the boundaries of its six segments, read at the buffers that later
  segments use.  The tensor operations before the first product compute the source list, the target list and the edge
  weights from the edge list; the first region leaves the product x · W1; the operations between the regions aggregate it,
  add the bias and take the positive part; the second region leaves hidden · W2; the operations after it aggregate that,
  add the bias and take the softmax.  A buffer no segment writes keeps its contents through that segment.
-/
import proofs.«127019_j27865747817169_1_alg».proof.Proof.Gen.KernelIdeal.Frame
import proofs.«127019_j27865747817169_1_alg».proof.Proof.Products
import proofs.«127019_j27865747817169_1_alg».proof.Proof.Spec
import proofs.«127019_j27865747817169_1_alg».proof.Proof.LibTypedRef
import Idealize.ShloMosaic.Lib.StableHlo.Run

set_option maxRecDepth 16384

noncomputable section

namespace Cert.KernelIdeal.Fold

open Cert.KernelIdeal Cert.KernelIdeal.Gen Cert.KernelIdeal.Stages Cert.KernelIdeal.Rows Cert.Rows
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-! ## At the first region's entry -/

theorem W1_sources (c : Dev nD) : W1 m ρ c (Proc.devRef .tc main_v5) = sources (F := Ideal) (m ((c : Thread nD τ).loc main_arg1)) := by
  dsimp only [W1, hostOps0]
  after_results_simp
  rfl
theorem W1_targets (c : Dev nD) : W1 m ρ c (Proc.devRef .tc main_v6) = targets (F := Ideal) (m ((c : Thread nD τ).loc main_arg1)) := by
  dsimp only [W1, hostOps0]
  after_results_simp
  rfl
theorem W1_weights (c : Dev nD) : W1 m ρ c (Proc.devRef .tc main_v26) = Cert.Spec.edgeWeights (m ((c : Thread nD τ).loc main_arg1)) := by
  dsimp only [W1, hostOps0]
  after_results_simp
  rfl
theorem W1_arg0 (c : Dev nD) : W1 m ρ c (Proc.devRef .tc main_arg0) = m ((c : Thread nD τ).loc main_arg0) := by
  dsimp only [W1, hostOps0]
  after_results_simp

theorem W1_arg2 (c : Dev nD) : W1 m ρ c (Proc.devRef .tc main_arg2) = m ((c : Thread nD τ).loc main_arg2) := by
  dsimp only [W1, hostOps0]
  after_results_simp

theorem W1_arg3 (c : Dev nD) : W1 m ρ c (Proc.devRef .tc main_arg3) = m ((c : Thread nD τ).loc main_arg3) := by
  dsimp only [W1, hostOps0]
  after_results_simp

theorem W1_arg4 (c : Dev nD) : W1 m ρ c (Proc.devRef .tc main_arg4) = m ((c : Thread nD τ).loc main_arg4) := by
  dsimp only [W1, hostOps0]
  after_results_simp

theorem W1_arg5 (c : Dev nD) : W1 m ρ c (Proc.devRef .tc main_arg5) = m ((c : Thread nD τ).loc main_arg5) := by
  dsimp only [W1, hostOps0]
  after_results_simp

/-! ## At the first region's exit: its output array holds x · W1, every other buffer is as entered -/

theorem W2_product (c : Dev nD) : W2 m ρ c (Proc.devRef .tc main_v27)
    = rowsTimes (a := 50000) (K := 256) (b := 128) (m ((c : Thread nD τ).loc main_arg0)) (m ((c : Thread nD τ).loc main_arg2)) :=
  (W2_arr m ρ c 2).trans ((final0 (V1 m ρ) c).trans (congrArg₂ (rowsTimes (a := 50000) (K := 256) (b := 128)) (W1_arg0 m ρ c) (W1_arg2 m ρ c)))
theorem W2_sources (c : Dev nD) : W2 m ρ c (Proc.devRef .tc main_v5) = sources (F := Ideal) (m ((c : Thread nD τ).loc main_arg1)) := (W2_of_ne m ρ c main_v5 (by decide)).trans (W1_sources m ρ c)
theorem W2_targets (c : Dev nD) : W2 m ρ c (Proc.devRef .tc main_v6) = targets (F := Ideal) (m ((c : Thread nD τ).loc main_arg1)) := (W2_of_ne m ρ c main_v6 (by decide)).trans (W1_targets m ρ c)
theorem W2_weights (c : Dev nD) : W2 m ρ c (Proc.devRef .tc main_v26) = Cert.Spec.edgeWeights (m ((c : Thread nD τ).loc main_arg1)) := (W2_of_ne m ρ c main_v26 (by decide)).trans (W1_weights m ρ c)
theorem W2_arg3 (c : Dev nD) : W2 m ρ c (Proc.devRef .tc main_arg3) = m ((c : Thread nD τ).loc main_arg3) := (W2_of_ne m ρ c main_arg3 (by decide)).trans (W1_arg3 m ρ c)
theorem W2_arg4 (c : Dev nD) : W2 m ρ c (Proc.devRef .tc main_arg4) = m ((c : Thread nD τ).loc main_arg4) := (W2_of_ne m ρ c main_arg4 (by decide)).trans (W1_arg4 m ρ c)
theorem W2_arg5 (c : Dev nD) : W2 m ρ c (Proc.devRef .tc main_arg5) = m ((c : Thread nD τ).loc main_arg5) := (W2_of_ne m ρ c main_arg5 (by decide)).trans (W1_arg5 m ρ c)

/-! ## At the second region's entry: the first layer's aggregation, bias and positive part have run -/

/-- The typed references of the outlined positive-part function name buffers of exactly the value's type, so moving
    contents to the buffer's type or back changes nothing. -/
theorem to_v44 (v : (⟨S50000x128, .f32⟩ : BufTy).Contents (Elt Ideal)) :
    (TRef.of (sig := sig) (T := ⟨S50000x128, .f32⟩) main_v44).toBuf v = v := rfl
theorem of_v43 (v : (⟨S50000x128, .f32⟩ : BufTy).Contents (Elt Ideal)) :
    (TRef.of (sig := sig) (T := ⟨S50000x128, .f32⟩) main_v43).ofBuf v = v := rfl

theorem W4_hidden (c : Dev nD) : W4 m ρ c (Proc.devRef .tc main_v44) = Cert.Spec.hidden (m ((c : Thread nD τ).loc main_arg0)) (m ((c : Thread nD τ).loc main_arg1)) (m ((c : Thread nD τ).loc main_arg2)) (m ((c : Thread nD τ).loc main_arg3)) := by
  dsimp only [W4, hostOps1_1]
  after_results_simp
  simp only [Cert.TypedRef.ofBuf_toBuf]
  rw [to_v44, of_v43, W2_product m ρ c, W2_sources m ρ c, W2_targets m ρ c, W2_weights m ρ c, W2_arg3 m ρ c]
  rfl
theorem W4_sources (c : Dev nD) : W4 m ρ c (Proc.devRef .tc main_v5) = sources (F := Ideal) (m ((c : Thread nD τ).loc main_arg1)) := by
  dsimp only [W4, hostOps1_1]
  after_results_simp
  exact W2_sources m ρ c
theorem W4_targets (c : Dev nD) : W4 m ρ c (Proc.devRef .tc main_v6) = targets (F := Ideal) (m ((c : Thread nD τ).loc main_arg1)) := by
  dsimp only [W4, hostOps1_1]
  after_results_simp
  exact W2_targets m ρ c
theorem W4_weights (c : Dev nD) : W4 m ρ c (Proc.devRef .tc main_v26) = Cert.Spec.edgeWeights (m ((c : Thread nD τ).loc main_arg1)) := by
  dsimp only [W4, hostOps1_1]
  after_results_simp
  exact W2_weights m ρ c
theorem W4_arg4 (c : Dev nD) : W4 m ρ c (Proc.devRef .tc main_arg4) = m ((c : Thread nD τ).loc main_arg4) := by
  dsimp only [W4, hostOps1_1]
  after_results_simp
  exact W2_arg4 m ρ c
theorem W4_arg5 (c : Dev nD) : W4 m ρ c (Proc.devRef .tc main_arg5) = m ((c : Thread nD τ).loc main_arg5) := by
  dsimp only [W4, hostOps1_1]
  after_results_simp
  exact W2_arg5 m ρ c

/-! ## At the second region's exit: its output array holds hidden · W2 -/

theorem W5_product (c : Dev nD) : W5 m ρ c (Proc.devRef .tc main_v45)
    = rowsTimes (a := 50000) (K := 128) (b := 16) (Cert.Spec.hidden (m ((c : Thread nD τ).loc main_arg0)) (m ((c : Thread nD τ).loc main_arg1)) (m ((c : Thread nD τ).loc main_arg2)) (m ((c : Thread nD τ).loc main_arg3))) (m ((c : Thread nD τ).loc main_arg4)) :=
  (W5_arr m ρ c 2).trans ((final1 (V4 m ρ) c).trans (congrArg₂ (rowsTimes (a := 50000) (K := 128) (b := 16)) (W4_hidden m ρ c) (W4_arg4 m ρ c)))
theorem W5_sources (c : Dev nD) : W5 m ρ c (Proc.devRef .tc main_v5) = sources (F := Ideal) (m ((c : Thread nD τ).loc main_arg1)) := (W5_of_ne m ρ c main_v5 (by decide)).trans (W4_sources m ρ c)
theorem W5_targets (c : Dev nD) : W5 m ρ c (Proc.devRef .tc main_v6) = targets (F := Ideal) (m ((c : Thread nD τ).loc main_arg1)) := (W5_of_ne m ρ c main_v6 (by decide)).trans (W4_targets m ρ c)
theorem W5_weights (c : Dev nD) : W5 m ρ c (Proc.devRef .tc main_v26) = Cert.Spec.edgeWeights (m ((c : Thread nD τ).loc main_arg1)) := (W5_of_ne m ρ c main_v26 (by decide)).trans (W4_weights m ρ c)
theorem W5_arg5 (c : Dev nD) : W5 m ρ c (Proc.devRef .tc main_arg5) = m ((c : Thread nD τ).loc main_arg5) := (W5_of_ne m ρ c main_arg5 (by decide)).trans (W4_arg5 m ρ c)

/-! ## At the end: the two results -/

theorem W6_scores (c : Dev nD) : W6 m ρ c (Proc.devRef .tc main_v61) = Cert.Spec.scores (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  dsimp only [W6, hostOps2]
  after_results_simp
  rw [W5_product m ρ c, W5_sources m ρ c, W5_targets m ρ c, W5_weights m ρ c, W5_arg5 m ρ c]
  rfl
theorem W6_probabilities (c : Dev nD) : W6 m ρ c (Proc.devRef .tc main_v72) = Cert.Spec.probabilities (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  dsimp only [W6, hostOps2]
  after_results_simp
  rw [W5_product m ρ c, W5_sources m ρ c, W5_targets m ρ c, W5_weights m ρ c, W5_arg5 m ρ c]
  rfl

end Cert.KernelIdeal.Fold

end
-- ==== Proof.RefValue.lean ====
/-
  The reference program computes the same function.  Its two general dot products are, entry by entry on the extended
  reals, the sums that define the product of two arrays; every other operation of it is, in order, an operation of the
  source list, the target list, the edge weights, a layer's aggregation and bias, the positive part or the softmax.
  The reference computes the lists and the edge weights once per layer; both times they are the same function of the
  edge list.
-/
import proofs.«127019_j27865747817169_1_alg».proof.Proof.Gen.ReferenceIdeal.Read
import proofs.«127019_j27865747817169_1_alg».proof.Proof.Spec
import proofs.«127019_j27865747817169_1_alg».proof.Proof.LibRowsProduct

set_option maxRecDepth 16384

noncomputable section

namespace Cert.ReferenceIdeal.RefValue

open Cert.ReferenceIdeal Cert.ReferenceIdeal.Gen Cert.ReferenceIdeal.Read Cert.Rows
open Idealize.ShloMosaic Idealize.ShloMosaic.ValueIdx

/-- The first dot product is the product of the features by the first weight matrix. -/
theorem first_product (x0 : (⟨S50000x256, .f32⟩ : BufTy).Contents (Elt Ideal)) (x2 : (⟨S256x128, .f32⟩ : BufTy).Contents (Elt Ideal)) :
    val_main_v0 (F := Ideal) x0 x2 = rowsTimes (a := 50000) (K := 256) (b := 128) x0 x2 := by
  funext i
  obtain ⟨p, u, rfl⟩ : ∃ (p : Fin 50000) (u : Fin 128), i = ix2 p u := ⟨i 0, i 1, eq_ix2 i⟩
  unfold val_main_v0
  simp only [Host.dotGeneral]
  exact Cert.RowsProduct.dotGeneral_rows_apply dot_S50000x256_S256x128_S50000x128_1_0_0_1_n_n none _ rfl rfl
    lhs_main_v0_0 lhs_main_v0_1 rhs_main_v0_0 rhs_main_v0_1 x0 x2 p u

/-- The value entering the second dot product is the hidden features. -/
theorem hidden_eq (x0 : (⟨S50000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) : val_main_v44 (F := Ideal) x0 x1 x2 x3 = Cert.Spec.hidden x0 x1 x2 x3 := by
  have h : val_main_v44 (F := Ideal) x0 x1 x2 x3
      = Cert.KernelIdeal.Stages.positive (F := Ideal) (Cert.KernelIdeal.Stages.biased128 (F := Ideal) (val_main_v0 (F := Ideal) x0 x2)
          (Cert.KernelIdeal.Stages.sources (F := Ideal) x1) (Cert.KernelIdeal.Stages.targets (F := Ideal) x1) (Cert.Spec.edgeWeights x1) x3) := rfl
  rw [h, first_product]
  rfl

/-- The second dot product is the product of the hidden features by the second weight matrix. -/
theorem second_product (x0 : (⟨S50000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) (x4 : (⟨S128x16, .f32⟩ : BufTy).Contents (Elt Ideal)) :
    val_main_v45 (F := Ideal) x0 x1 x2 x3 x4
      = rowsTimes (a := 50000) (K := 128) (b := 16) (val_main_v44 (F := Ideal) x0 x1 x2 x3) x4 := by
  funext i
  obtain ⟨p, u, rfl⟩ : ∃ (p : Fin 50000) (u : Fin 16), i = ix2 p u := ⟨i 0, i 1, eq_ix2 i⟩
  unfold val_main_v45
  simp only [Host.dotGeneral]
  exact Cert.RowsProduct.dotGeneral_rows_apply dot_S50000x128_S128x16_S50000x16_1_0_0_1_n_n none _ rfl rfl
    lhs_main_v45_0 lhs_main_v45_1 rhs_main_v45_0 rhs_main_v45_1 (val_main_v44 (F := Ideal) x0 x1 x2 x3) x4 p u

/-- The first result is the scores. -/
theorem scores_eq (x0 : (⟨S50000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) (x4 : (⟨S128x16, .f32⟩ : BufTy).Contents (Elt Ideal)) (x5 : (⟨S16, .f32⟩ : BufTy).Contents (Elt Ideal)) : val_main_v88 (F := Ideal) x0 x1 x2 x3 x4 x5 = Cert.Spec.scores x0 x1 x2 x3 x4 x5 := by
  have h : val_main_v88 (F := Ideal) x0 x1 x2 x3 x4 x5
      = Cert.KernelIdeal.Stages.logits (F := Ideal) (val_main_v45 (F := Ideal) x0 x1 x2 x3 x4)
          (Cert.KernelIdeal.Stages.sources (F := Ideal) x1) (Cert.KernelIdeal.Stages.targets (F := Ideal) x1) (Cert.Spec.edgeWeights x1) x5 := rfl
  rw [h, second_product, hidden_eq]
  rfl

/-- The second result is the class probabilities. -/
theorem probabilities_eq (x0 : (⟨S50000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) (x4 : (⟨S128x16, .f32⟩ : BufTy).Contents (Elt Ideal)) (x5 : (⟨S16, .f32⟩ : BufTy).Contents (Elt Ideal)) :
    val_main_v99 (F := Ideal) x0 x1 x2 x3 x4 x5 = Cert.Spec.probabilities x0 x1 x2 x3 x4 x5 := by
  have h : val_main_v99 (F := Ideal) x0 x1 x2 x3 x4 x5 = Cert.KernelIdeal.Stages.softmax (F := Ideal) (val_main_v88 (F := Ideal) x0 x1 x2 x3 x4 x5) := rfl
  rw [h, scores_eq]
  rfl

end Cert.ReferenceIdeal.RefValue

end
-- ==== Proof.lean ====
/-
  The certificate of a two-layer graph convolution.  The kernel program does each layer's dense projection as a
  pipelined matrix product, block row by block row, with the operands rounded to bf16, and the sparse aggregation, the
  bias, the positive part and the softmax as plain tensor operations; the reference does the projections as general dot
  products and recomputes the edge weights for each layer.  On the extended reals rounding is the identity, a product
  into a zero accumulator is the plain sum of products, and ten block rows written back are the whole product; every
  other operation of the two programs is the same operation of the same operands.  So both programs end with the scores
  and their row-wise softmax as one function of the six arguments (Spec.lean).  No step uses the finiteness of the inputs.

  The three frames: the two kernel programs' are the generated ones; the reference's is its generated run with the results
  dropped.  The idealization rewrote nothing, so there is nothing to preserve.
-/
import proofs.«127019_j27865747817169_1_alg».proof.Defs
import proofs.«127019_j27865747817169_1_alg».proof.Proof.Gen.Kernel
import proofs.«127019_j27865747817169_1_alg».proof.Proof.Gen.Kernel.Skeleton
import proofs.«127019_j27865747817169_1_alg».proof.Proof.Gen.Kernel.Launch
import proofs.«127019_j27865747817169_1_alg».proof.Proof.Gen.Kernel.Points
import proofs.«127019_j27865747817169_1_alg».proof.Proof.Gen.Kernel.Frame
import proofs.«127019_j27865747817169_1_alg».proof.Proof.Gen.KernelIdeal
import proofs.«127019_j27865747817169_1_alg».proof.Proof.Gen.KernelIdeal.Skeleton
import proofs.«127019_j27865747817169_1_alg».proof.Proof.Gen.KernelIdeal.Launch
import proofs.«127019_j27865747817169_1_alg».proof.Proof.Gen.KernelIdeal.Points
import proofs.«127019_j27865747817169_1_alg».proof.Proof.Gen.KernelIdeal.Frame
import proofs.«127019_j27865747817169_1_alg».proof.Proof.Gen.ReferenceIdeal
import proofs.«127019_j27865747817169_1_alg».proof.Proof.Gen.Pre_finite_inputs
import proofs.«127019_j27865747817169_1_alg».proof.Proof.Gen.ReferenceIdeal.Run
import proofs.«127019_j27865747817169_1_alg».proof.Proof.Gen.ReferenceIdeal.Read
import proofs.«127019_j27865747817169_1_alg».proof.Proof.KernelRun
import proofs.«127019_j27865747817169_1_alg».proof.Proof.Fold
import proofs.«127019_j27865747817169_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

/-- Both idealized programs end with the scores and the class probabilities of their (agreeing) arguments. -/
theorem algebraic : Cert.algebraic_KernelIdeal_ReferenceIdeal := by
  intro m ρ m' ρ' _ hagree
  refine ⟨fun c => Cert.Spec.scores (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Spec.probabilities (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c =>
      ⟨(h c).1.trans (Cert.KernelIdeal.Fold.W6_scores m ρ c), (h c).2.1.trans (Cert.KernelIdeal.Fold.W6_probabilities m ρ c), (h c).2.2⟩)
      (Cert.KernelIdeal.Held.run_results m ρ)
  · refine (θ_run Cert.ReferenceIdeal.defs _ _).mono (fun r h c => ⟨?_, ?_, (h c).2.2⟩) (Cert.ReferenceIdeal.Value.run (F := Ideal) m' ρ')
    · rw [(h c).1, Cert.ReferenceIdeal.Read.val_main_v88_eq, Cert.ReferenceIdeal.RefValue.scores_eq,
        (hagree c).1, (hagree c).2.1, (hagree c).2.2.1, (hagree c).2.2.2.1, (hagree c).2.2.2.2.1, (hagree c).2.2.2.2.2]
    · rw [(h c).2.1, Cert.ReferenceIdeal.Read.val_main_v99_eq, Cert.ReferenceIdeal.RefValue.probabilities_eq,
        (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
